-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x256x5x5 : Shape := ⟨5, ![16, 512, 256, 5, 5]⟩
abbrev S6400x256 : Shape := ⟨2, ![6400, 256]⟩
abbrev S256 : Shape := ⟨1, ![256]⟩
abbrev S256x64 : Shape := ⟨2, ![256, 64]⟩
abbrev S64 : Shape := ⟨1, ![64]⟩
abbrev S64x21 : Shape := ⟨2, ![64, 21]⟩
abbrev S21 : Shape := ⟨1, ![21]⟩
abbrev S_ : Shape := ⟨0, ![]⟩

class Facts : Prop where
  bcast_S_S16x512x256x5x5 : S_.BroadcastsInDim S16x512x256x5x5 (![] : Fin 0 → Fin S16x512x256x5x5.rank)
  reducesTo_S16x512x256x5x5_S_d0_1_2_3_4 : S16x512x256x5x5.ReducesTo [0, 1, 2, 3, 4] S_
  h_S_ : 0 < S_.numel
  bcast_S_S6400x256 : S_.BroadcastsInDim S6400x256 (![] : Fin 0 → Fin S6400x256.rank)
  reducesTo_S6400x256_S_d0_1 : S6400x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x21 : S_.BroadcastsInDim S64x21 (![] : Fin 0 → Fin S64x21.rank)
  reducesTo_S64x21_S_d0_1 : S64x21.ReducesTo [0, 1] S_
  bcast_S_S21 : S_.BroadcastsInDim S21 (![] : Fin 0 → Fin S21.rank)
  reducesTo_S21_S_d0 : S21.ReducesTo [0] S_

variable [Facts]

def fn_part1 {F : FTy → Type} [FloatOps F] (main_arg4 : FVec F S64 .f32) (main_arg5 : FVec F S64x21 .f32) (main_arg6 : FVec F S21 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x21 .f32 := Host.absf main_arg5
  let main_cst_8 : FVec F S_ .f32 := constant S_ .f32 0x7F800000#32
  let main_v25 : FVec F S64x21 .f32 := broadcastInDim S64x21 ![] bcast_S_S64x21 main_cst_8
  let main_v26 : IVec S64x21 1 := cmpf .olt main_v24 main_v25
  let main_c_9 : IVec S_ 1 := constantI S_ 1 1#1
  let main_v27 : IVec S_ 1 := (fun x v => Host.reduce IntOp.andi x v reducesTo_S64x21_S_d0_1 h_S_) main_v26 main_c_9
  let main_v28 : IVec S_ 1 := andi main_v23 main_v27
  let main_v29 : FVec F S21 .f32 := Host.absf main_arg6
  let main_cst_10 : FVec F S_ .f32 := constant S_ .f32 0x7F800000#32
  let main_v30 : FVec F S21 .f32 := broadcastInDim S21 ![] bcast_S_S21 main_cst_10
  let main_v31 : IVec S21 1 := cmpf .olt main_v29 main_v30
  let main_c_11 : IVec S_ 1 := constantI S_ 1 1#1
  let main_v32 : IVec S_ 1 := (fun x v => Host.reduce IntOp.andi x v reducesTo_S21_S_d0 h_S_) main_v31 main_c_11
  let main_v33 : IVec S_ 1 := andi main_v28 main_v32
  main_v33

def fn {F : FTy → Type} [FloatOps F] (main_arg0 : FVec F S16x512x256x5x5 .f32) (main_arg1 : FVec F S6400x256 .f32) (main_arg2 : FVec F S256 .f32) (main_arg3 : FVec F S256x64 .f32) (main_arg4 : FVec F S64 .f32) (main_arg5 : FVec F S64x21 .f32) (main_arg6 : FVec F S21 .f32) : IVec S_ 1 :=
  let main_v0 : FVec F S16x512x256x5x5 .f32 := Host.absf main_arg0
  let main_cst : FVec F S_ .f32 := constant S_ .f32 0x7F800000#32
  let main_v1 : FVec F S16x512x256x5x5 .f32 := broadcastInDim S16x512x256x5x5 ![] bcast_S_S16x512x256x5x5 main_cst
  let main_v2 : IVec S16x512x256x5x5 1 := cmpf .olt main_v0 main_v1
  let main_c : IVec S_ 1 := constantI S_ 1 1#1
  let main_v3 : IVec S_ 1 := (fun x v => Host.reduce IntOp.andi x v reducesTo_S16x512x256x5x5_S_d0_1_2_3_4 h_S_) main_v2 main_c
  let main_v4 : FVec F S6400x256 .f32 := Host.absf main_arg1
  let main_cst_0 : FVec F S_ .f32 := constant S_ .f32 0x7F800000#32
  let main_v5 : FVec F S6400x256 .f32 := broadcastInDim S6400x256 ![] bcast_S_S6400x256 main_cst_0
  let main_v6 : IVec S6400x256 1 := cmpf .olt main_v4 main_v5
  let main_c_1 : IVec S_ 1 := constantI S_ 1 1#1
  let main_v7 : IVec S_ 1 := (fun x v => Host.reduce IntOp.andi x v reducesTo_S6400x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_arg5 main_arg6 main_v13 main_v16
-- ==== Kernel.lean ====
abbrev S16x512x256x5x5 : Shape := ⟨5, ![16, 512, 256, 5, 5]⟩
abbrev S6400x256 : Shape := ⟨2, ![6400, 256]⟩
abbrev S256 : Shape := ⟨1, ![256]⟩
abbrev S256x64 : Shape := ⟨2, ![256, 64]⟩
abbrev S64 : Shape := ⟨1, ![64]⟩
abbrev S64x21 : Shape := ⟨2, ![64, 21]⟩
abbrev S21 : Shape := ⟨1, ![21]⟩
abbrev S8192x6400 : Shape := ⟨2, ![8192, 6400]⟩
abbrev S1x256 : Shape := ⟨2, ![1, 256]⟩
abbrev S1x64 : Shape := ⟨2, ![1, 64]⟩
abbrev S1x21 : Shape := ⟨2, ![1, 21]⟩
abbrev S8192x21 : Shape := ⟨2, ![8192, 21]⟩
abbrev S512x6400 : Shape := ⟨2, ![512, 6400]⟩
abbrev S512x21 : Shape := ⟨2, ![512, 21]⟩
abbrev S512x256 : Shape := ⟨2, ![512, 256]⟩
abbrev S512x64 : Shape := ⟨2, ![512, 64]⟩
abbrev S16x512x21 : Shape := ⟨3, ![16, 512, 21]⟩

abbrev nBuf : Space → Nat
  | .hbm => 16
  | .vmem => 10
  | .smem => 0
  | _ => 0

abbrev bufTy : (tb : Table) → Fin (tcTables nBuf tb) → BufTy
  | .hbm, ⟨0, _⟩ => ⟨S16x512x256x5x5, .f32⟩
  | .hbm, ⟨1, _⟩ => ⟨S6400x256, .f32⟩
  | .hbm, ⟨2, _⟩ => ⟨S256, .f32⟩
  | .hbm, ⟨3, _⟩ => ⟨S256x64, .f32⟩
  | .hbm, ⟨4, _⟩ => ⟨S64, .f32⟩
  | .hbm, ⟨5, _⟩ => ⟨S64x21, .f32⟩
  | .hbm, ⟨6, _⟩ => ⟨S21, .f32⟩
  | .hbm, ⟨7, _⟩ => ⟨S8192x6400, .f32⟩
  | .hbm, ⟨8, _⟩ => ⟨S6400x256, .bf16⟩
  | .hbm, ⟨9, _⟩ => ⟨S256x64, .bf16⟩
  | .hbm, ⟨10, _⟩ => ⟨S64x21, .bf16⟩
  | .hbm, ⟨11, _⟩ => ⟨S1x256, .f32⟩
  | .hbm, ⟨12, _⟩ => ⟨S1x64, .f32⟩
  | .hbm, ⟨13, _⟩ => ⟨S1x21, .f32⟩
  | .hbm, ⟨14, _⟩ => ⟨S8192x21, .f32⟩
  | .hbm, ⟨15, _⟩ => ⟨S16x512x21, .f32⟩
  | .local _ .vmem, ⟨0, _⟩ => ⟨S512x6400, .f32⟩
  | .local _ .vmem, ⟨1, _⟩ => ⟨S512x6400, .f32⟩
  | .local _ .vmem, ⟨2, _⟩ => ⟨S6400x256, .bf16⟩
  | .local _ .vmem, ⟨3, _⟩ => ⟨S1x256, .f32⟩
  | .local _ .vmem, ⟨4, _⟩ => ⟨S256x64, .bf16⟩
  | .local _ .vmem, ⟨5, _⟩ => ⟨S1x64, .f32⟩
  | .local _ .vmem, ⟨6, _⟩ => ⟨S64x21, .bf16⟩
  | .local _ .vmem, ⟨7, _⟩ => ⟨S1x21, .f32⟩
  | .local _ .vmem, ⟨8, _⟩ => ⟨S512x21, .f32⟩
  | .local _ .vmem, ⟨9, _⟩ => ⟨S512x21, .f32⟩
  | _, _ => ⟨S16x512x256x5x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6400x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x21 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x21 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x21 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S16x512x256x5x5_S8192x6400 : S16x512x256x5x5.ShapeCasts S8192x6400
  bitsLt_bf16_f32 : FTy.bits .bf16 < FTy.bits .f32
  shapeCasts_S256_S1x256 : S256.ShapeCasts S1x256
  shapeCasts_S64_S1x64 : S64.ShapeCasts S1x64
  shapeCasts_S21_S1x21 : S21.ShapeCasts S1x21
  inb_S512x6400_S512x6400_0_0 : ∀ a, (![0, 0] : Fin 2 → Nat) a + S512x6400.size a ≤ S512x6400.size a
  h_S512x6400 : 0 < S512x6400.numel
  shapeCasts_S512x6400_S512x6400 : S512x6400.ShapeCasts S512x6400
  inb_S6400x256_S6400x256_0_0 : ∀ a, (![0, 0] : Fin 2 → Nat) a + S6400x256.size a ≤ S6400x256.size a
  h_S6400x256 : 0 < S6400x256.numel
  shapeCasts_S6400x256_S6400x256 : S6400x256.ShapeCasts S6400x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x21_S64x21_0_0 : ∀ a, (![0, 0] : Fin 2 → Nat) a + S64x21.size a ≤ S64x21.size a
  h_S64x21 : 0 < S64x21.numel
  shapeCasts_S64x21_S64x21 : S64x21.ShapeCasts S64x21
  inb_S1x21_S1x21_0_0 : ∀ a, (![0, 0] : Fin 2 → Nat) a + S1x21.size a ≤ S1x21.size a
  h_S1x21 : 0 < S1x21.numel
  shapeCasts_S1x21_S1x21 : S1x21.ShapeCasts S1x21
  broadcasts_S1x21_S512x21 : S1x21.Broadcasts S512x21
  inb_S512x21_S512x21_0_0 : ∀ a, (![0, 0] : Fin 2 → Nat) a + S512x21.size a ≤ S512x21.size a
  h_S512x21 : 0 < S512x21.numel
  shapeCasts_S8192x21_S16x512x21 : S8192x21.ShapeCasts S16x512x21
  dot_S512x6400_S6400x256_S512x256_1_0_0_1_n_n_wf : DotDims.WF S512x6400 S6400x256 S512x256 [1] [0] [0] [1] [] []
  dot_S512x256_S256x64_S512x64_1_0_0_1_n_n_wf : DotDims.WF S512x256 S256x64 S512x64 [1] [0] [0] [1] [] []
  dot_S512x64_S64x21_S512x21_1_0_0_1_n_n_wf : DotDims.WF S512x64 S64x21 S512x21 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x6400.size a ≤ S8192x6400.size a
  hwx0_0 : ∀ i : grid0.Coords, EltTy.bits .f32 = 32 ∨ (Rect.block (s := S8192x6400) S512x6400.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6400x256.size a ≤ S6400x256.size a
  hwx0_1 : ∀ i : grid0.Coords, EltTy.bits .bf16 = 32 ∨ (Rect.block (s := S6400x256) S6400x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .bf16 = 32 ∨ (Rect.block (s := S256x64) S256x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x21.size a ≤ S64x21.size a
  hwx0_5 : ∀ i : grid0.Coords, EltTy.bits .bf16 = 32 ∨ (Rect.block (s := S64x21) S64x21.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x21.size a ≤ S1x21.size a
  hwx0_6 : ∀ i : grid0.Coords, EltTy.bits .f32 = 32 ∨ (Rect.block (s := S1x21) S1x21.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x21.size a ≤ S8192x21.size a
  hwx0_7 : ∀ i : grid0.Coords, EltTy.bits .f32 = 32 ∨ (Rect.block (s := S8192x21) S512x21.size (cc0_transform_7 i) (hinb0_7 i)).WholeWords (EltTy.packing .f32)

variable [Facts₀]

def dot_S512x6400_S6400x256_S512x256_1_0_0_1_n_n : DotDims S512x6400 S6400x256 S512x256 where
  lhsContracting := [1]
  rhsContracting := [0]
  lhsNonContracting := [0]
  rhsNonContracting := [1]
  lhsBatch := []
  rhsBatch := []
  wf := dot_S512x6400_S6400x256_S512x256_1_0_0_1_n_n_wf
def dot_S512x256_S256x64_S512x64_1_0_0_1_n_n : DotDims S512x256 S256x64 S512x64 where
  lhsContracting := [1]
  rhsContracting := [0]
  lhsNonContracting := [0]
  rhsNonContracting := [1]
  lhsBatch := []
  rhsBatch := []
  wf := dot_S512x256_S256x64_S512x64_1_0_0_1_n_n_wf
def dot_S512x64_S64x21_S512x21_1_0_0_1_n_n : DotDims S512x64 S64x21 S512x21 where
  lhsContracting := [1]
  rhsContracting := [0]
  lhsNonContracting := [0]
  rhsNonContracting := [1]
  lhsBatch := []
  rhsBatch := []
  wf := dot_S512x64_S64x21_S512x21_1_0_0_1_n_n_wf

abbrev win0_0 : Pipeline.Window sig grid0 :=
  Pipeline.Window.ofSpec (Memref.whole main_v0) S512x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S6400x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S64x21.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x21.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S512x21.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x512x256x5x5 : Shape := ⟨5, ![16, 512, 256, 5, 5]⟩
abbrev S6400x256 : Shape := ⟨2, ![6400, 256]⟩
abbrev S256 : Shape := ⟨1, ![256]⟩
abbrev S256x64 : Shape := ⟨2, ![256, 64]⟩
abbrev S64 : Shape := ⟨1, ![64]⟩
abbrev S64x21 : Shape := ⟨2, ![64, 21]⟩
abbrev S21 : Shape := ⟨1, ![21]⟩
abbrev S8192x6400 : Shape := ⟨2, ![8192, 6400]⟩
abbrev S8192x256 : Shape := ⟨2, ![8192, 256]⟩
abbrev S1x256 : Shape := ⟨2, ![1, 256]⟩
abbrev S_ : Shape := ⟨0, ![]⟩
abbrev S8192x64 : Shape := ⟨2, ![8192, 64]⟩
abbrev S1x64 : Shape := ⟨2, ![1, 64]⟩
abbrev S8192x21 : Shape := ⟨2, ![8192, 21]⟩
abbrev S1x21 : Shape := ⟨2, ![1, 21]⟩
abbrev S16x512x21 : Shape := ⟨3, ![16, 512, 21]⟩

abbrev nBuf : Space → Nat
  | .hbm => 27
  | .vmem => 0
  | .smem => 0
  | _ => 0

abbrev bufTy : (tb : Table) → Fin (tcTables nBuf tb) → BufTy
  | .hbm, ⟨0, _⟩ => ⟨S16x512x256x5x5, .f32⟩
  | .hbm, ⟨1, _⟩ => ⟨S6400x256, .f32⟩
  | .hbm, ⟨2, _⟩ => ⟨S256, .f32⟩
  | .hbm, ⟨3, _⟩ => ⟨S256x64, .f32⟩
  | .hbm, ⟨4, _⟩ => ⟨S64, .f32⟩
  | .hbm, ⟨5, _⟩ => ⟨S64x21, .f32⟩
  | .hbm, ⟨6, _⟩ => ⟨S21, .f32⟩
  | .hbm, ⟨7, _⟩ => ⟨S8192x6400, .f32⟩
  | .hbm, ⟨8, _⟩ => ⟨S8192x256, .f32⟩
  | .hbm, ⟨9, _⟩ => ⟨S1x256, .f32⟩
  | .hbm, ⟨10, _⟩ => ⟨S8192x256, .f32⟩
  | .hbm, ⟨11, _⟩ => ⟨S8192x256, .f32⟩
  | .hbm, ⟨12, _⟩ => ⟨S_, .f32⟩
  | .hbm, ⟨13, _⟩ => ⟨S8192x256, .f32⟩
  | .hbm, ⟨14, _⟩ => ⟨S8192x256, .f32⟩
  | .hbm, ⟨15, _⟩ => ⟨S8192x64, .f32⟩
  | .hbm, ⟨16, _⟩ => ⟨S1x64, .f32⟩
  | .hbm, ⟨17, _⟩ => ⟨S8192x64, .f32⟩
  | .hbm, ⟨18, _⟩ => ⟨S8192x64, .f32⟩
  | .hbm, ⟨19, _⟩ => ⟨S_, .f32⟩
  | .hbm, ⟨20, _⟩ => ⟨S8192x64, .f32⟩
  | .hbm, ⟨21, _⟩ => ⟨S8192x64, .f32⟩
  | .hbm, ⟨22, _⟩ => ⟨S8192x21, .f32⟩
  | .hbm, ⟨23, _⟩ => ⟨S1x21, .f32⟩
  | .hbm, ⟨24, _⟩ => ⟨S8192x21, .f32⟩
  | .hbm, ⟨25, _⟩ => ⟨S8192x21, .f32⟩
  | .hbm, ⟨26, _⟩ => ⟨S16x512x21, .f32⟩
  | _, _ => ⟨S16x512x256x5x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call1_cst : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  shapeCasts_S16x512x256x5x5_S8192x6400 : S16x512x256x5x5.ShapeCasts S8192x6400
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S21_S1x21_1 : S21.BroadcastsInDim S1x21 (![1] : Fin 1 → Fin S1x21.rank)
  bcast_S1x21_S8192x21_0_1 : S1x21.BroadcastsInDim S8192x21 (![0, 1] : Fin 2 → Fin S8192x21.rank)
  shapeCasts_S8192x21_S16x512x21 : S8192x21.ShapeCasts S16x512x21
  dot_S8192x6400_S6400x256_S8192x256_1_0_0_1_n_n_wf : DotDims.WF S8192x6400 S6400x256 S8192x256 [1] [0] [0] [1] [] []
  dot_S8192x256_S256x64_S8192x64_1_0_0_1_n_n_wf : DotDims.WF S8192x256 S256x64 S8192x64 [1] [0] [0] [1] [] []
  dot_S8192x64_S64x21_S8192x21_1_0_0_1_n_n_wf : DotDims.WF S8192x64 S64x21 S8192x21 [1] [0] [0] [1] [] []

variable [Facts₀]

def dot_S8192x6400_S6400x256_S8192x256_1_0_0_1_n_n : DotDims S8192x6400 S6400x256 S8192x256 where
  lhsContracting := [1]
  rhsContracting := [0]
  lhsNonContracting := [0]
  rhsNonContracting := [1]
  lhsBatch := []
  rhsBatch := []
  wf := dot_S8192x6400_S6400x256_S8192x256_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x64_S64x21_S8192x21_1_0_0_1_n_n : DotDims S8192x64 S64x21 S8192x21 where
  lhsContracting := [1]
  rhsContracting := [0]
  lhsNonContracting := [0]
  rhsNonContracting := [1]
  lhsBatch := []
  rhsBatch := []
  wf := dot_S8192x64_S64x21_S8192x21_1_0_0_1_n_n_wf

class Facts : Prop extends Facts₀ where

variable [Facts]
-- ==== Proof.MlpSpec.lean ====
/-
  A three-layer perceptron, row by row, over the extended reals.

  A row `x` of 6400 entries goes through three affine layers, the first two followed by the rectifier:
    h₁ = max (x · W₁ + b₁) 0     (256 entries)
    h₂ = max (h₁ · W₂ + b₂) 0    (64 entries)
    y  = h₂ · W₃ + b₃            (21 entries)
  where `(h · W) j = Σ_k h k * W k j`. Each result row depends on its own input row only, so the whole
  [8192, 21] result is this function of row `r` of the [8192, 6400] input, for every `r`: `out`.
  Nothing here needs finiteness: the sums and products are taken in one fixed grouping.
-/
import Idealize.ShloMosaic.PureOps.Ideal
import Idealize.ShloMosaic.Lib.ValueIdx

noncomputable section

open scoped BigOperators

namespace Cert.Mlp

open Idealize.ShloMosaic Idealize.ShloMosaic.ValueIdx

/-- One affine layer on a row: entry `j` of `h · W + b` is `Σ_k h k * W k j + b j`. -/
def affine {K J : Nat} (h : Fin K → EReal) (W : Fin K → Fin J → EReal) (b : Fin J → EReal) : Fin J → EReal :=
  fun j => (∑ k : Fin K, h k * W k j) + b j

/-- The rectifier, entry by entry: `max (h j) 0`. -/
def relu {J : Nat} (h : Fin J → EReal) : Fin J → EReal := fun j => max (h j) 0

/-- The three layers on one row. -/
def mlpRow (x : Fin 6400 → EReal) (W1 : Fin 6400 → Fin 256 → EReal) (b1 : Fin 256 → EReal)
    (W2 : Fin 256 → Fin 64 → EReal) (b2 : Fin 64 → EReal) (W3 : Fin 64 → Fin 21 → EReal) (b3 : Fin 21 → EReal) :
    Fin 21 → EReal :=
  affine (relu (affine (relu (affine x W1 b1)) W2 b2)) W3 b3

/-- Entry `(r, q)` of the result from the input matrix, the weight matrices and the bias vectors as arrays. -/
def outAt (X : (⟨2, ![8192, 6400]⟩ : Shape).Idx → EReal) (W1 : (⟨2, ![6400, 256]⟩ : Shape).Idx → EReal)
    (b1 : (⟨1, ![256]⟩ : Shape).Idx → EReal) (W2 : (⟨2, ![256, 64]⟩ : Shape).Idx → EReal)
    (b2 : (⟨1, ![64]⟩ : Shape).Idx → EReal) (W3 : (⟨2, ![64, 21]⟩ : Shape).Idx → EReal)
    (b3 : (⟨1, ![21]⟩ : Shape).Idx → EReal) (r : Fin 8192) (q : Fin 21) : EReal :=
  mlpRow (fun k => X (ix2 r k)) (fun k j => W1 (ix2 k j)) (fun j => b1 (ix1 j))
    (fun k j => W2 (ix2 k j)) (fun j => b2 (ix1 j)) (fun k j => W3 (ix2 k j)) (fun j => b3 (ix1 j)) q

/-- The whole [8192, 21] result array. -/
def out (X : (⟨2, ![8192, 6400]⟩ : Shape).Idx → EReal) (W1 : (⟨2, ![6400, 256]⟩ : Shape).Idx → EReal)
    (b1 : (⟨1, ![256]⟩ : Shape).Idx → EReal) (W2 : (⟨2, ![256, 64]⟩ : Shape).Idx → EReal)
    (b2 : (⟨1, ![64]⟩ : Shape).Idx → EReal) (W3 : (⟨2, ![64, 21]⟩ : Shape).Idx → EReal)
    (b3 : (⟨1, ![21]⟩ : Shape).Idx → EReal) : (⟨2, ![8192, 21]⟩ : Shape).Idx → EReal :=
  fun i => outAt X W1 b1 W2 b2 W3 b3 (i 0) (i 1)

theorem out_ix2 (X : (⟨2, ![8192, 6400]⟩ : Shape).Idx → EReal) (W1 : (⟨2, ![6400, 256]⟩ : Shape).Idx → EReal)
    (b1 : (⟨1, ![256]⟩ : Shape).Idx → EReal) (W2 : (⟨2, ![256, 64]⟩ : Shape).Idx → EReal)
    (b2 : (⟨1, ![64]⟩ : Shape).Idx → EReal) (W3 : (⟨2, ![64, 21]⟩ : Shape).Idx → EReal)
    (b3 : (⟨1, ![21]⟩ : Shape).Idx → EReal) (r : Fin 8192) (q : Fin 21) :
    out X W1 b1 W2 b2 W3 b3 (ix2 r q) = outAt X W1 b1 W2 b2 W3 b3 r q := rfl

end Cert.Mlp

end
-- ==== Proof.LibMatmulPlain.lean ====
/-
  A plain matrix product into a zero accumulator, read at an entry, over the extended reals.

  For the dimension numbers `DotDims.plain M K N` (an `M × K` left operand, a `K × N` right operand, the left one's
  columns contracted with the right one's rows, no batch axis) entry `(p, q)` of the product accumulated into the
  zero matrix is `Σ_{k < K} l (p, k) * r (k, q)`: the contraction index has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem plain_lhsIdx (M K N : Nat) (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index there is `(k, q)`. -/
theorem plain_rhsIdx (M K N : Nat) (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- ENTRY `(p, q)` OF A PLAIN PRODUCT INTO ZERO: the sum over `k : Fin K` of `l (p, k) * r (k, q)`. -/
theorem matmul_plain_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.Lib

end
-- ==== Proof.KernelPayload.lean ====
/-
  What one grid step of the kernel computes, entry by entry, is the row-by-row perceptron of `MlpSpec`.

  The body takes a [512, 6400] block of input rows, the three weight matrices whole and the three biases as
  [1, n] rows, and stores a [512, 21] block: three matrix products into zero accumulators, each followed by the
  addition of its bias row broadcast over the 512 rows, the first two also by `max · 0`. The changes of float
  format are the identity on the extended reals and the shape casts are to the same shape. Read at entry
  `(p, q)` of the block, each product is a sum over the contracted coordinate of row `p` of its left operand
  against column `q` of its right one: the stored block at `(p, q)` is `Mlp.mlpRow` of row `p` of the input block.
-/
import proofs.«116976_j74517682585655_2_alg».proof.Proof.Gen.KernelIdeal.Skeleton
import proofs.«116976_j74517682585655_2_alg».proof.Proof.MlpSpec
import proofs.«116976_j74517682585655_2_alg».proof.Proof.LibMatmulPlain
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-! ## The three products are plain ones -/

theorem dims1 : dot_S512x6400_S6400x256_S512x256_1_0_0_1_n_n = DotDims.plain 512 6400 256 := rfl
theorem dims2 : dot_S512x256_S256x64_S512x64_1_0_0_1_n_n = DotDims.plain 512 256 64 := rfl
theorem dims3 : dot_S512x64_S64x21_S512x21_1_0_0_1_n_n = DotDims.plain 512 64 21 := rfl

/-! ## One layer at an entry -/

/-- The first layer with its rectifier, at entry `(p, q)` of the [512, 256] block. -/
theorem hidden1 (l : FVec Ideal S512x6400 .bf16) (r : FVec Ideal S6400x256 .bf16) (b : FVec Ideal S1x256 .f32)
    (p : Fin 512) (q : Fin 256) :
    (truncf .bf16 (maximumf (addf (matmul dot_S512x6400_S6400x256_S512x256_1_0_0_1_n_n none l r (constant S512x256 .f32 0x00000000#32))
        (broadcastTo S512x256 b broadcasts_S1x256_S512x256)) (broadcast S512x256 (Scalar.ofBits .f32 0x00000000#32))) bitsLt_bf16_f32
      : FVec Ideal S512x256 .bf16) (ix2 p q)
      = Mlp.relu (Mlp.affine (fun k => l (ix2 p k)) (fun k j => r (ix2 k j)) (fun j => b (ix2 (0 : Fin 1) j))) q := by
  rw [truncf_apply, maximumf_apply, addf_apply, broadcast_apply, broadcastTo_1b_ab_apply, dims1]
  show max (FloatOps.matmul (DotDims.plain 512 6400 256) none l r (constant ⟨2, ![512, 256]⟩ .f32 0x00000000#32) (ix2 p q) + _) (Ideal.ofBits .f32 0x00000000#32) = _
  rw [Lib.matmul_plain_zero_apply, Ideal.ofBits_zero_f32]
  rfl

/-- The second layer with its rectifier, at entry `(p, q)` of the [512, 64] block. -/
theorem hidden2 (l : FVec Ideal S512x256 .bf16) (r : FVec Ideal S256x64 .bf16) (b : FVec Ideal S1x64 .f32)
    (p : Fin 512) (q : Fin 64) :
    (truncf .bf16 (maximumf (addf (matmul dot_S512x256_S256x64_S512x64_1_0_0_1_n_n none l r (constant S512x64 .f32 0x00000000#32))
        (broadcastTo S512x64 b broadcasts_S1x64_S512x64)) (broadcast S512x64 (Scalar.ofBits .f32 0x00000000#32))) bitsLt_bf16_f32
      : FVec Ideal S512x64 .bf16) (ix2 p q)
      = Mlp.relu (Mlp.affine (fun k => l (ix2 p k)) (fun k j => r (ix2 k j)) (fun j => b (ix2 (0 : Fin 1) j))) q := by
  rw [truncf_apply, maximumf_apply, addf_apply, broadcast_apply, broadcastTo_1b_ab_apply, dims2]
  show max (FloatOps.matmul (DotDims.plain 512 256 64) none l r (constant ⟨2, ![512, 64]⟩ .f32 0x00000000#32) (ix2 p q) + _) (Ideal.ofBits .f32 0x00000000#32) = _
  rw [Lib.matmul_plain_zero_apply, Ideal.ofBits_zero_f32]
  rfl

/-- The last layer, at entry `(p, q)` of the [512, 21] block. -/
theorem last (l : FVec Ideal S512x64 .bf16) (r : FVec Ideal S64x21 .bf16) (b : FVec Ideal S1x21 .f32)
    (p : Fin 512) (q : Fin 21) :
    addf (matmul dot_S512x64_S64x21_S512x21_1_0_0_1_n_n none l r (constant S512x21 .f32 0x00000000#32))
        (broadcastTo S512x21 b broadcasts_S1x21_S512x21) (ix2 p q)
      = Mlp.affine (fun k => l (ix2 p k)) (fun k j => r (ix2 k j)) (fun j => b (ix2 (0 : Fin 1) j)) q := by
  rw [addf_apply, broadcastTo_1b_ab_apply, dims3]
  show FloatOps.matmul (DotDims.plain 512 64 21) none l r (constant ⟨2, ![512, 21]⟩ .f32 0x00000000#32) (ix2 p q) + _ = _
  rw [Lib.matmul_plain_zero_apply]
  rfl

/-! ## The stored block at an entry -/

/-- THE PAYLOAD AT AN ENTRY: entry `(p, q)` of the stored block is the perceptron of row `p` of the input block. -/
theorem pay_apply (x0 : Vec Ideal S512x6400 .f32) (x1 : Vec Ideal S6400x256 .bf16) (x2 : Vec Ideal S1x256 .f32)
    (x3 : Vec Ideal S256x64 .bf16) (x4 : Vec Ideal S1x64 .f32) (x5 : Vec Ideal S64x21 .bf16) (x6 : Vec Ideal S1x21 .f32)
    (p : Fin 512) (q : Fin 21) :
    k0_pay1 x0 x1 x2 x3 x4 x5 x6 (ix2 p q)
      = Mlp.mlpRow (fun k => x0 (ix2 p k)) (fun k j => x1 (ix2 k j)) (fun j => x2 (ix2 (0 : Fin 1) j))
          (fun k j => x3 (ix2 k j)) (fun j => x4 (ix2 (0 : Fin 1) j)) (fun k j => x5 (ix2 k j)) (fun j => x6 (ix2 (0 : Fin 1) j)) q := by
  unfold k0_pay1
  simp only [shapeCast_self]
  refine (last _ _ _ p q).trans ?_
  unfold Mlp.mlpRow
  refine congrArg (fun h => Mlp.affine h _ _ q) (funext fun k3 => ?_)
  refine (hidden2 _ _ _ p k3).trans ?_
  refine congrArg (fun h => Mlp.relu (Mlp.affine h _ _) k3) (funext fun k2 => ?_)
  exact hidden1 _ _ _ p k2

end Cert.KernelIdeal.Payload

end
-- ==== Proof.KernelValue.lean ====
/-
  The array the kernel's region leaves, and the program's result.

  The grid has 16 steps; step `t` reads rows `512 t … 512 t + 511` of the flattened [8192, 6400] input, the three
  weight matrices and the three bias rows whole, and writes back rows `512 t … 512 t + 511` of the [8192, 21]
  output. The stored block at `(p, q)` is the perceptron of row `p` of the input block (`Payload.pay_apply`), which is
  row `512 t + p` of the input: every step writes back a block of ONE function of the arrays, `Mlp.out`. The 16 blocks
  tile the output (row `r` lies in block `r / 512`), so the output array ends holding `Mlp.out`.
  Before the region the program flattens the input, changes the weights' float format (the identity on the extended
  reals) and views each bias vector as a [1, n] row; after it, it views the [8192, 21] output as [16, 512, 21].
-/
import proofs.«116976_j74517682585655_2_alg».proof.Proof.Gen.KernelIdeal.Frame
import proofs.«116976_j74517682585655_2_alg».proof.Proof.KernelPayload
import Idealize.ShloMosaic.Lib.Pipeline.Value
import Idealize.ShloMosaic.Lib.StableHlo.Run
import Idealize.ShloMosaic.Lib.ValueLayout
import Idealize.ShloMosaic.Lib.Tactic

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays the region finds -/

/-- The input, flattened to [8192, 6400]. -/
theorem V_input (c : Dev nD) : (V m c main_v0 : S8192x6400.Idx → Elt Ideal .f32)
    = shapeCast S8192x6400 (m ((c.tc : Thread nD τ).loc main_arg0)) shapeCasts_S16x512x256x5x5_S8192x6400 := by
  show StableHlo.after hostOps0 (fun b => m (c, b)) (Proc.devRef .tc main_v0) = _
  after_results
  rfl

/-- The first weight matrix: its change of float format is the identity on the extended reals. -/
theorem V_w1 (c : Dev nD) : (V m c main_v1 : S6400x256.Idx → Elt Ideal .bf16) = (m ((c.tc : Thread nD τ).loc main_arg1)) := by
  show StableHlo.after hostOps0 (fun b => m (c, b)) (Proc.devRef .tc main_v1) = _
  after_results
  rfl

/-- The second weight matrix, likewise. -/
theorem V_w2 (c : Dev nD) : (V m c main_v2 : S256x64.Idx → Elt Ideal .bf16) = (m ((c.tc : Thread nD τ).loc main_arg3)) := by
  show StableHlo.after hostOps0 (fun b => m (c, b)) (Proc.devRef .tc main_v2) = _
  after_results
  rfl

/-- The third weight matrix, likewise. -/
theorem V_w3 (c : Dev nD) : (V m c main_v3 : S64x21.Idx → Elt Ideal .bf16) = (m ((c.tc : Thread nD τ).loc main_arg5)) := by
  show StableHlo.after hostOps0 (fun b => m (c, b)) (Proc.devRef .tc main_v3) = _
  after_results
  rfl

/-- The first bias vector, viewed as one row. -/
theorem V_b1 (c : Dev nD) : (V m c main_v4 : S1x256.Idx → Elt Ideal .f32)
    = shapeCast S1x256 (m ((c.tc : Thread nD τ).loc main_arg2)) shapeCasts_S256_S1x256 := by
  show StableHlo.after hostOps0 (fun b => m (c, b)) (Proc.devRef .tc main_v4) = _
  after_results
  rfl

/-- The second bias vector, viewed as one row. -/
theorem V_b2 (c : Dev nD) : (V m c main_v5 : S1x64.Idx → Elt Ideal .f32)
    = shapeCast S1x64 (m ((c.tc : Thread nD τ).loc main_arg4)) shapeCasts_S64_S1x64 := by
  show StableHlo.after hostOps0 (fun b => m (c, b)) (Proc.devRef .tc main_v5) = _
  after_results
  rfl

/-- The third bias vector, viewed as one row. -/
theorem V_b3 (c : Dev nD) : (V m c main_v6 : S1x21.Idx → Elt Ideal .f32)
    = shapeCast S1x21 (m ((c.tc : Thread nD τ).loc main_arg6)) shapeCasts_S21_S1x21 := by
  show StableHlo.after hostOps0 (fun b => m (c, b)) (Proc.devRef .tc main_v6) = _
  after_results
  rfl

/-! ## Each window's block at an entry -/

/-- The index maps over the grid: the input and output blocks move down one block of rows per step, the weights and
    biases stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `p` of step `t`'s block is row `512 t + p` of the array. -/
def rowOf (t : Fin cfg0.N) (p : Fin 512) : Fin 8192 :=
  ⟨t.val * 512 + p.val, by have hN : cfg0.N = 16 := N_0; have := t.isLt; have := p.isLt; omega⟩

/-- The input block at `(p, k)` is the flattened input at row `512 t + p`. -/
theorem input_apply (c : Dev nD) (t : Fin cfg0.N) (p : Fin 512) (k : Fin 6400) :
    (iblk m c 0 t : Vec Ideal S512x6400 .f32) (ix2 p k)
      = shapeCast S8192x6400 (m ((c.tc : Thread nD τ).loc main_arg0)) shapeCasts_S16x512x256x5x5_S8192x6400 (ix2 (rowOf t p) k) := by
  obtain ⟨e0, e1, -⟩ := idx_facts t
  rw [← V_input]
  unfold iblk
  rw [View.read_apply]
  show V m c main_v0 _ = V m c main_v0 _
  refine congrArg (V m c main_v0) (funext fun a => Fin.ext ?_)
  match a with
  | ⟨0, _⟩ => show win0_0.index t (0 : Fin 2) * 512 + 1 * p.val = t.val * 512 + p.val; rw [e0]; omega
  | ⟨1, _⟩ => show win0_0.index t (1 : Fin 2) * 6400 + 1 * k.val = k.val; rw [e1]; omega

/-- The first weight block is the whole first weight matrix. -/
theorem w1_apply (c : Dev nD) (t : Fin cfg0.N) (k : Fin 6400) (j : Fin 256) :
    (iblk m c 1 t : Vec Ideal S6400x256 .bf16) (ix2 k j) = (m ((c.tc : Thread nD τ).loc main_arg1)) (ix2 k j) := by
  obtain ⟨-, -, e0, e1, -⟩ := idx_facts t
  rw [← V_w1 m c]
  unfold iblk
  rw [View.read_apply]
  show V m c main_v1 _ = V m c main_v1 _
  refine congrArg (V m c main_v1) (funext fun a => Fin.ext ?_)
  match a with
  | ⟨0, _⟩ => show win0_1.index t (0 : Fin 2) * 6400 + 1 * k.val = k.val; rw [e0]; omega
  | ⟨1, _⟩ => show win0_1.index t (1 : Fin 2) * 256 + 1 * j.val = j.val; rw [e1]; omega

/-- The first bias block is the first bias vector as one row. -/
theorem b1_apply (c : Dev nD) (t : Fin cfg0.N) (j : Fin 256) :
    (iblk m c 2 t : Vec Ideal S1x256 .f32) (ix2 (0 : Fin 1) j) = (m ((c.tc : Thread nD τ).loc main_arg2)) (ix1 j) := by
  obtain ⟨-, -, -, -, e0, e1, -⟩ := idx_facts t
  rw [← shapeCast_a_1a_apply (m ((c.tc : Thread nD τ).loc main_arg2)) shapeCasts_S256_S1x256 (0 : Fin 1) j, ← V_b1]
  unfold iblk
  rw [View.read_apply]
  show V m c main_v4 _ = V m c main_v4 _
  refine congrArg (V m c main_v4) (funext fun a => Fin.ext ?_)
  match a with
  | ⟨0, _⟩ => show win0_2.index t (0 : Fin 2) * 1 + 1 * 0 = 0; rw [e0]
  | ⟨1, _⟩ => show win0_2.index t (1 : Fin 2) * 256 + 1 * j.val = j.val; rw [e1]; omega

/-- The second weight block is the whole second weight matrix. -/
theorem w2_apply (c : Dev nD) (t : Fin cfg0.N) (k : Fin 256) (j : Fin 64) :
    (iblk m c 3 t : Vec Ideal S256x64 .bf16) (ix2 k j) = (m ((c.tc : Thread nD τ).loc main_arg3)) (ix2 k j) := by
  obtain ⟨-, -, -, -, -, -, e0, e1, -⟩ := idx_facts t
  rw [← V_w2 m c]
  unfold iblk
  rw [View.read_apply]
  show V m c main_v2 _ = V m c main_v2 _
  refine congrArg (V m c main_v2) (funext fun a => Fin.ext ?_)
  match a with
  | ⟨0, _⟩ => show win0_3.index t (0 : Fin 2) * 256 + 1 * k.val = k.val; rw [e0]; omega
  | ⟨1, _⟩ => show win0_3.index t (1 : Fin 2) * 64 + 1 * j.val = j.val; rw [e1]; omega

/-- The second bias block is the second bias vector as one row. -/
theorem b2_apply (c : Dev nD) (t : Fin cfg0.N) (j : Fin 64) :
    (iblk m c 4 t : Vec Ideal S1x64 .f32) (ix2 (0 : Fin 1) j) = (m ((c.tc : Thread nD τ).loc main_arg4)) (ix1 j) := by
  obtain ⟨-, -, -, -, -, -, -, -, e0, e1, -⟩ := idx_facts t
  rw [← shapeCast_a_1a_apply (m ((c.tc : Thread nD τ).loc main_arg4)) shapeCasts_S64_S1x64 (0 : Fin 1) j, ← V_b2]
  unfold iblk
  rw [View.read_apply]
  show V m c main_v5 _ = V m c main_v5 _
  refine congrArg (V m c main_v5) (funext fun a => Fin.ext ?_)
  match a with
  | ⟨0, _⟩ => show win0_4.index t (0 : Fin 2) * 1 + 1 * 0 = 0; rw [e0]
  | ⟨1, _⟩ => show win0_4.index t (1 : Fin 2) * 64 + 1 * j.val = j.val; rw [e1]; omega

/-- The third weight block is the whole third weight matrix. -/
theorem w3_apply (c : Dev nD) (t : Fin cfg0.N) (k : Fin 64) (j : Fin 21) :
    (iblk m c 5 t : Vec Ideal S64x21 .bf16) (ix2 k j) = (m ((c.tc : Thread nD τ).loc main_arg5)) (ix2 k j) := by
  obtain ⟨-, -, -, -, -, -, -, -, -, -, e0, e1, -⟩ := idx_facts t
  rw [← V_w3 m c]
  unfold iblk
  rw [View.read_apply]
  show V m c main_v3 _ = V m c main_v3 _
  refine congrArg (V m c main_v3) (funext fun a => Fin.ext ?_)
  match a with
  | ⟨0, _⟩ => show win0_5.index t (0 : Fin 2) * 64 + 1 * k.val = k.val; rw [e0]; omega
  | ⟨1, _⟩ => show win0_5.index t (1 : Fin 2) * 21 + 1 * j.val = j.val; rw [e1]; omega

/-- The third bias block is the third bias vector as one row. -/
theorem b3_apply (c : Dev nD) (t : Fin cfg0.N) (j : Fin 21) :
    (iblk m c 6 t : Vec Ideal S1x21 .f32) (ix2 (0 : Fin 1) j) = (m ((c.tc : Thread nD τ).loc main_arg6)) (ix1 j) := by
  obtain ⟨-, -, -, -, -, -, -, -, -, -, -, -, e0, e1, -⟩ := idx_facts t
  rw [← shapeCast_a_1a_apply (m ((c.tc : Thread nD τ).loc main_arg6)) shapeCasts_S21_S1x21 (0 : Fin 1) j, ← V_b3]
  unfold iblk
  rw [View.read_apply]
  show V m c main_v6 _ = V m c main_v6 _
  refine congrArg (V m c main_v6) (funext fun a => Fin.ext ?_)
  match a with
  | ⟨0, _⟩ => show win0_6.index t (0 : Fin 2) * 1 + 1 * 0 = 0; rw [e0]
  | ⟨1, _⟩ => show win0_6.index t (1 : Fin 2) * 21 + 1 * j.val = j.val; rw [e1]; omega

/-! ## What a step writes back, and the array after the last step -/

/-- The [8192, 21] array the region leaves: the perceptron of every row of the flattened input. -/
abbrev regionOut (c : Dev nD) : S8192x21.Idx → EReal :=
  Mlp.out (shapeCast S8192x6400 (m ((c.tc : Thread nD τ).loc main_arg0)) shapeCasts_S16x512x256x5x5_S8192x6400)
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))

/-- WHAT STEP `t` WRITES BACK is block `t` of `regionOut`. -/
theorem flushed_eq (c : Dev nD) (t : Fin cfg0.N) :
    (dats m 0 c).flushed 7 t = ((cfg0.win 7).blk t).view.read (Elt Ideal) (regionOut m c) := by
  show (cfg0.win 7).cut (grid0.coords t) ((dats m 0 c).after 7 t) = _
  rw [after0_7]
  unfold out0_7
  rw [View.canon_unit_zero hz]
  simp only [View.ld_unit_zero (S := S512x6400) hz, View.ld_unit_zero (S := S6400x256) hz, View.ld_unit_zero (S := S1x256) hz,
    View.ld_unit_zero (S := S256x64) hz, View.ld_unit_zero (S := S1x64) hz, View.ld_unit_zero (S := S64x21) hz,
    View.ld_unit_zero (S := S1x21) hz]
  obtain ⟨-, -, -, -, -, -, -, -, -, -, -, -, -, -, e0, e1⟩ := idx_facts t
  funext y
  obtain ⟨p, q, rfl⟩ : ∃ (p : Fin 512) (q : Fin 21), y = ix2 p q := ⟨y 0, y 1, eq_ix2 y⟩
  show k0_pay1 (iblk m c 0 t) (iblk m c 1 t) (iblk m c 2 t) (iblk m c 3 t) (iblk m c 4 t) (iblk m c 5 t) (iblk m c 6 t) (ix2 p q)
    = regionOut m c (((cfg0.win 7).blk t).view.emb (ix2 p q))
  have hemb : ((cfg0.win 7).blk t).view.emb (ix2 p q) = ix2 (rowOf t p) q := by
    funext a
    refine Fin.ext ?_
    match a with
    | ⟨0, _⟩ => show win0_7.index t (0 : Fin 2) * 512 + 1 * p.val = t.val * 512 + p.val; rw [e0]; omega
    | ⟨1, _⟩ => show win0_7.index t (1 : Fin 2) * 21 + 1 * q.val = q.val; rw [e1]; omega
  rw [hemb]
  refine (Payload.pay_apply _ _ _ _ _ _ _ p q).trans ?_
  show _ = Mlp.outAt _ _ _ _ _ _ _ (rowOf t p) q
  unfold Mlp.outAt
  simp only [input_apply, w1_apply, b1_apply, w2_apply, b2_apply, w3_apply, b3_apply]

/-- An index of the output array is in step `t`'s block iff each coordinate is in the block's range on its axis. -/
theorem mem_blk (t : Fin cfg0.N) (i : S8192x21.Idx) :
    i ∈ ((cfg0.win 7).blk t).view.set ↔ ∀ a : Fin 2, win0_7.index t a * S512x21.size a ≤ (i a).val ∧ (i a).val < win0_7.index t a * S512x21.size a + S512x21.size a := by
  show i ∈ ((View.whole main_v7).slice (win0_7.rect t)).set ↔ _
  rw [View.set_slice_whole, Rect.mem_set_unit]
  exact Iff.rfl

/-- THE OUTPUT ARRAY AFTER THE REGION is `regionOut`: row `r` is written back by step `r / 512`. -/
theorem final (c : Dev nD) : (dats m 0 c).arrAt 7 cfg0.N = regionOut m c :=
  (dats m 0 c).arrAt_eq_of_cover 7 (regionOut m c) (fun t _ => flushed_eq m c t) fun i => by
    have hN : cfg0.N = 16 := N_0
    have hi0 : (i 0).val < 8192 := (i 0).isLt
    have hi1 : (i 1).val < 21 := (i 1).isLt
    obtain ⟨-, -, -, -, -, -, -, -, -, -, -, -, -, -, e0, e1⟩ := idx_facts ⟨(i 0).val / 512, by omega⟩
    refine ⟨⟨(i 0).val / 512, by omega⟩, flush0_7 _, ?_⟩
    rw [mem_blk]
    intro a
    match a with
    | ⟨0, _⟩ =>
      show win0_7.index ⟨(i 0).val / 512, _⟩ (0 : Fin 2) * 512 ≤ (i 0).val ∧ (i 0).val < win0_7.index ⟨(i 0).val / 512, _⟩ (0 : Fin 2) * 512 + 512
      rw [e0]
      show (i 0).val / 512 * 512 ≤ (i 0).val ∧ (i 0).val < (i 0).val / 512 * 512 + 512
      omega
    | ⟨1, _⟩ =>
      show win0_7.index ⟨(i 0).val / 512, _⟩ (1 : Fin 2) * 21 ≤ (i 1).val ∧ (i 1).val < win0_7.index ⟨(i 0).val / 512, _⟩ (1 : Fin 2) * 21 + 21
      rw [e1]
      omega

/-! ## The program's result -/

/-- The result: `regionOut` viewed as [16, 512, 21]. -/
abbrev result (c : Dev nD) : S16x512x21.Idx → EReal :=
  shapeCast S16x512x21 (regionOut m c) shapeCasts_S8192x21_S16x512x21

/-- The one host operation after the region reshapes the region's output array. -/
theorem tail_eq (c : Dev nD) :
    Pipeline.afterTail₀ cfgs (dats m) 0 (V0 m) [hostOps1] c main_v8 = result m c := by
  unfold Pipeline.afterTail₀
  show StableHlo.after hostOps1 _ (Proc.devRef .tc main_v8) = _
  after_results
  have hw : Pipeline.withArrays (cfgs 0).spec c (V0 m c) (fun w => (dats m 0 c).arrAt w (cfgs 0).N) (Proc.devRef .tc main_v7) = regionOut m c :=
    (Pipeline.withArrays_arr spec0 launch0.win.arr_inj c _ _ 7).trans (final m c)
  rw [hw]
  rfl

/-- THE RUN, READ: every weakly fair execution terminates with the result array at `result` and the arguments unchanged. -/
theorem run : θ_run defs (onTc (τ := τ) (main (F := Ideal))) ⟨m, fun _ => 0, ρ⟩ fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Blocks

end
-- ==== Proof.RefValue.lean ====
/-
  The reference, read entry by entry, is the row-by-row perceptron of `MlpSpec`.

  The reference flattens the input to [8192, 6400] and applies three `dot_general`s, each followed by the
  addition of a bias row broadcast over the 8192 rows, the first two also by `max · 0`. Read at entry
  `(r, q)` each `dot_general` is the sum over the contracted coordinate of products of row `r` of its left
  operand with column `q` of its right one, and each broadcast bias is the bias vector at `q`: entry
  `(r, q)` of the last sum is `Mlp.outAt` of the flattened input, the weights and the biases.
-/
import proofs.«116976_j74517682585655_2_alg».proof.Proof.Gen.ReferenceIdeal.Read
import proofs.«116976_j74517682585655_2_alg».proof.Proof.MlpSpec

noncomputable section

open scoped BigOperators

namespace Cert.ReferenceIdeal.RefValue

open Cert.ReferenceIdeal Cert.ReferenceIdeal.Read Idealize.ShloMosaic Idealize.ShloMosaic.ValueIdx

/-! ## The operand indices of each stage at entry `(r, q)` -/

theorem lidx1 (r : Fin 8192) (q : Fin 256) (k : Fin 6400) : lidx_main_v1 (ix2 r q) k = ix2 r k :=
  funext fun a => by match a with | ⟨0, _⟩ => rfl | ⟨1, _⟩ => rfl
theorem ridx1 (r : Fin 8192) (q : Fin 256) (k : Fin 6400) : ridx_main_v1 (ix2 r q) k = ix2 k q :=
  funext fun a => by match a with | ⟨0, _⟩ => rfl | ⟨1, _⟩ => rfl
theorem lidx6 (r : Fin 8192) (q : Fin 64) (k : Fin 256) : lidx_main_v6 (ix2 r q) k = ix2 r k :=
  funext fun a => by match a with | ⟨0, _⟩ => rfl | ⟨1, _⟩ => rfl
theorem ridx6 (r : Fin 8192) (q : Fin 64) (k : Fin 256) : ridx_main_v6 (ix2 r q) k = ix2 k q :=
  funext fun a => by match a with | ⟨0, _⟩ => rfl | ⟨1, _⟩ => rfl
theorem lidx11 (r : Fin 8192) (q : Fin 21) (k : Fin 64) : lidx_main_v11 (ix2 r q) k = ix2 r k :=
  funext fun a => by match a with | ⟨0, _⟩ => rfl | ⟨1, _⟩ => rfl
theorem ridx11 (r : Fin 8192) (q : Fin 21) (k : Fin 64) : ridx_main_v11 (ix2 r q) k = ix2 k q :=
  funext fun a => by match a with | ⟨0, _⟩ => rfl | ⟨1, _⟩ => rfl

/-- The first bias, broadcast to [1, 256] and then over the rows, read at `(r, q)` is the vector at `q`. -/
theorem bias1 (x2 : (⟨S256, .f32⟩ : BufTy).Contents (Elt Ideal)) (r : Fin 8192) (q : Fin 256) :
    val_main_v3 (F := Ideal) x2 (ix2 r q) = x2 (ix1 q) := by
  rw [val_main_v3_apply, val_main_v2_apply]
  exact congrArg x2 (funext fun a => by match a with | ⟨0, _⟩ => rfl)
/-- The second bias at `(r, q)`. -/
theorem bias2 (x4 : (⟨S64, .f32⟩ : BufTy).Contents (Elt Ideal)) (r : Fin 8192) (q : Fin 64) :
    val_main_v8 (F := Ideal) x4 (ix2 r q) = x4 (ix1 q) := by
  rw [val_main_v8_apply, val_main_v7_apply]
  exact congrArg x4 (funext fun a => by match a with | ⟨0, _⟩ => rfl)
/-- The third bias at `(r, q)`. -/
theorem bias3 (x6 : (⟨S21, .f32⟩ : BufTy).Contents (Elt Ideal)) (r : Fin 8192) (q : Fin 21) :
    val_main_v13 (F := Ideal) x6 (ix2 r q) = x6 (ix1 q) := by
  rw [val_main_v13_apply, val_main_v12_apply]
  exact congrArg x6 (funext fun a => by match a with | ⟨0, _⟩ => rfl)

/-- The zero the first rectifier compares with. -/
theorem zero1 (i : S8192x256.Idx) : val_main_call0_v0 (F := Ideal) i = 0 := by
  rw [val_main_call0_v0_apply, val_main_call0_cst_apply]; exact Ideal.ofBits_zero_f32
/-- The zero the second rectifier compares with. -/
theorem zero2 (i : S8192x64.Idx) : val_main_call1_v0 (F := Ideal) i = 0 := by
  rw [val_main_call1_v0_apply, val_main_call1_cst_apply]; exact Ideal.ofBits_zero_f32

/-! ## The stages at entry `(r, q)` -/

variable (x0 : (⟨S16x512x256x5x5, .f32⟩ : BufTy).Contents (Elt Ideal)) (x1 : (⟨S6400x256, .f32⟩ : BufTy).Contents (Elt Ideal))
  (x2 : (⟨S256, .f32⟩ : BufTy).Contents (Elt Ideal)) (x3 : (⟨S256x64, .f32⟩ : BufTy).Contents (Elt Ideal))
  (x4 : (⟨S64, .f32⟩ : BufTy).Contents (Elt Ideal)) (x5 : (⟨S64x21, .f32⟩ : BufTy).Contents (Elt Ideal))
  (x6 : (⟨S21, .f32⟩ : BufTy).Contents (Elt Ideal))

/-- The first hidden layer: `max (x · W₁ + b₁) 0` at `(r, q)`. -/
theorem hidden1 (r : Fin 8192) (q : Fin 256) :
    val_main_v5 (F := Ideal) x0 x1 x2 (ix2 r q)
      = Mlp.relu (Mlp.affine (fun k => val_main_v0 (F := Ideal) x0 (ix2 r k)) (fun k j => x1 (ix2 k j)) (fun j => x2 (ix1 j))) q := by
  rw [val_main_v5_apply, val_main_v4_apply, val_main_v1_apply, bias1, zero1]
  simp only [lidx1, ridx1]
  rfl

/-- The second hidden layer at `(r, q)`. -/
theorem hidden2 (r : Fin 8192) (q : Fin 64) :
    val_main_v10 (F := Ideal) x0 x1 x2 x3 x4 (ix2 r q)
      = Mlp.relu (Mlp.affine (Mlp.relu (Mlp.affine (fun k => val_main_v0 (F := Ideal) x0 (ix2 r k)) (fun k j => x1 (ix2 k j)) (fun j => x2 (ix1 j))))
          (fun k j => x3 (ix2 k j)) (fun j => x4 (ix1 j))) q := by
  rw [val_main_v10_apply, val_main_v9_apply, val_main_v6_apply, bias2, zero2]
  simp only [lidx6, ridx6, hidden1]
  rfl

/-- THE REFERENCE AT AN ENTRY: the last sum at `(r, q)` is the perceptron of row `r` of the flattened input. -/
theorem result_apply (r : Fin 8192) (q : Fin 21) :
    val_main_v14 (F := Ideal) x0 x1 x2 x3 x4 x5 x6 (ix2 r q)
      = Mlp.outAt (val_main_v0 (F := Ideal) x0) x1 x2 x3 x4 x5 x6 r q := by
  rw [val_main_v14_apply, val_main_v11_apply, bias3]
  simp only [lidx11, ridx11, hidden2]
  rfl

/-- The whole [8192, 21] array before the last reshape. -/
theorem result_eq :
    val_main_v14 (F := Ideal) x0 x1 x2 x3 x4 x5 x6 = Mlp.out (val_main_v0 (F := Ideal) x0) x1 x2 x3 x4 x5 x6 := by
  funext i
  obtain ⟨r, q, rfl⟩ : ∃ (r : Fin 8192) (q : Fin 21), i = ix2 r q := ⟨i 0, i 1, eq_ix2 i⟩
  rw [result_apply, Mlp.out_ix2]

end Cert.ReferenceIdeal.RefValue

end
-- ==== Proof.lean ====
/-
  A three-layer perceptron as one fused kernel, against its plain reference, over the extended reals.

  Both programs flatten the [16, 512, 256, 5, 5] input to 8192 rows of 6400 entries and send every row through
    h₁ = max (x · W₁ + b₁) 0,   h₂ = max (h₁ · W₂ + b₂) 0,   y = h₂ · W₃ + b₃,
  and view the [8192, 21] result as [16, 512, 21]. The kernel does so 512 rows at a time over a grid of 16 steps,
  with the weights rounded to a shorter float format on the way in; the reference does it for all rows at once.
  On the extended reals a change of float format is the identity and each matrix product is the same sum of
  products in both programs, so the two results are the same function of the arguments, entry by entry:
  `Mlp.out` (MlpSpec). No algebraic law joins the two sides — the sums have the same terms in the same grouping —
  and the finiteness of the inputs is never used.

  * the kernel's side: `KernelIdeal.Blocks.run` (KernelValue, over KernelPayload and LibMatmulPlain);
  * the reference's side: its run, and `ReferenceIdeal.RefValue.result_eq` (RefValue);
  * the three frames: the two kernel programs' frame certificates, and the reference's run with its result dropped;
  * the idealization rewrote nothing, so `preserves` asks nothing.
-/
import proofs.«116976_j74517682585655_2_alg».proof.Defs
import proofs.«116976_j74517682585655_2_alg».proof.Proof.Gen.Kernel
import proofs.«116976_j74517682585655_2_alg».proof.Proof.Gen.Kernel.Frame
import proofs.«116976_j74517682585655_2_alg».proof.Proof.Gen.KernelIdeal
import proofs.«116976_j74517682585655_2_alg».proof.Proof.Gen.KernelIdeal.Frame
import proofs.«116976_j74517682585655_2_alg».proof.Proof.Gen.ReferenceIdeal
import proofs.«116976_j74517682585655_2_alg».proof.Proof.Gen.ReferenceIdeal.Run
import proofs.«116976_j74517682585655_2_alg».proof.Proof.Gen.ReferenceIdeal.Read
import proofs.«116976_j74517682585655_2_alg».proof.Proof.Gen.Pre_finite_inputs
import proofs.«116976_j74517682585655_2_alg».proof.Proof.KernelValue
import proofs.«116976_j74517682585655_2_alg».proof.Proof.RefValue

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the perceptron of every input row, viewed as
    [16, 512, 21]: the kernel's run (`Blocks.run`) and the reference's, whose last sum is `Mlp.out` of its own
    arguments (`RefValue.result_eq`). -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v15_eq]
  unfold Cert.ReferenceIdeal.Read.val_main_v15
  rw [Cert.ReferenceIdeal.RefValue.result_eq, h0, h1, h2, h3, h4, h5, h6]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
